-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x40 .f32) (main_arg4 : FVec F S40 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S2000x128 : Shape := ⟨2, ![2000, 128]⟩
abbrev S2000x64 : Shape := ⟨2, ![2000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 42
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S_, .f32⟩
  | .hbm, ⟨37, _⟩ => ⟨S100000x40, .f32⟩
  | .hbm, ⟨38, _⟩ => ⟨S1600000x1, .i32⟩
  | .hbm, ⟨39, _⟩ => ⟨S100000x40, .f32⟩
  | .hbm, ⟨40, _⟩ => ⟨S1x40, .f32⟩
  | .hbm, ⟨41, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x40, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .hbm, ⟨46, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KRun.lean ====
/-
  The idealized kernel's run with its result NAMED.

  @main is seven segments: the index preparation on the host, the first projection (a pallas_call), the first
  aggregation and the bias's reshape on the host, the bias-and-ReLU and the second projection (two pallas_calls),
  the second aggregation on the host, the last bias (a pallas_call). The buffer contents at the seven boundaries are
  the fold `W0 … W7` from the launch memory. Every weakly fair execution terminates with every unscoped buffer at the
  last boundary's contents `W7`; read at the result buffer this names the result, and read at the arguments it gives
  them back unchanged.
-/
import proofs.«120568_j197568496077_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six arguments as launched. -/
theorem run_result : θ_run defs (onTc (τ := τ) (main (F := F))) ⟨m, fun _ => 0, ρ⟩ (fun r => ∀ c : Dev nD,
      r.2.mem ((c.tc : Thread nD τ).loc main_v29) = W7 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v29 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.HostStages.lean ====
/-
  The host operations between the pallas_calls, as pure functions of the buffers they read.

  @main's three stretches of host operations are: the two rows of the edge array flattened (every edge's source and
  destination node); the first aggregation — the projected rows gathered at the sources (a negative index wrapped by
  the number of nodes) and scatter-added into a zero array at the destinations — and the bias reshaped to one row;
  the same aggregation and reshape for the second layer. For ANY buffer contents `W` the stretch starts from, its
  results are these functions of `W` at the buffers it reads, and a buffer it does not write is left as it was.
-/
import proofs.«120568_j197568496077_2_alg».proof.Proof.Gen.KernelIdeal.Launch
import Idealize.ShloMosaic.Lib.StableHlo.Run

set_option maxRecDepth 16384

noncomputable section

namespace Cert.KernelIdeal.HostSt

open Cert.KernelIdeal Cert.KernelIdeal.Gen
open Idealize.ShloMosaic Idealize.ShloMosaic.TcCoe Idealize.SL.Sem Idealize.ShloMosaic.StableHlo

variable {F : FTy → Type} [FloatOps F]

/-- Row `0` of the edge array, flattened: every edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row `1` of the edge array, flattened: every edge's destination node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The first layer's aggregation: rows of `h` gathered at the sources (a negative one wrapped by 100000) and
    scatter-added into the zero array at the destinations. -/
def agg64 (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The second layer's aggregation: the same at 40 columns. -/
def agg40 (h : (⟨S100000x40, .f32⟩ : BufTy).Contents (Elt F)) (src dst : (⟨S1600000, .i32⟩ : BufTy).Contents (Elt F)) :
    (⟨S100000x40, .f32⟩ : BufTy).Contents (Elt F) :=
  Host.scatterAdd scatter_S100000x40_S1600000x1_S1600000x40_1_0_0_1
    (broadcastInDim S100000x40 ![] bcast_S_S100000x40 (constant (F := F) S_ .f32 0x00000000#32))
    (broadcastInDim S1600000x1 ![0] bcast_S1600000_S1600000x1_0 dst)
    (Host.gather gather_S100000x40_S1600000x1_S1600000x40_1_0_n_n_0_1_140 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (W : Valuation τ sig (Elt F))

/-! ## The first stretch: the edge array's two rows -/

theorem st0_v1 : after (hostOps0 (F := F)) W (Proc.devRef .tc main_v1) = srcOf (W (Proc.devRef .tc main_arg5)) := by
  unfold srcOf; after_results; rfl
theorem st0_v3 : after (hostOps0 (F := F)) W (Proc.devRef .tc main_v3) = dstOf (W (Proc.devRef .tc main_arg5)) := by
  unfold dstOf; after_results; rfl
theorem st0_arg0 : after (hostOps0 (F := F)) W (Proc.devRef .tc main_arg0) = W (Proc.devRef .tc main_arg0) := by after_results
theorem st0_arg1 : after (hostOps0 (F := F)) W (Proc.devRef .tc main_arg1) = W (Proc.devRef .tc main_arg1) := by after_results
theorem st0_arg2 : after (hostOps0 (F := F)) W (Proc.devRef .tc main_arg2) = W (Proc.devRef .tc main_arg2) := by after_results
theorem st0_arg3 : after (hostOps0 (F := F)) W (Proc.devRef .tc main_arg3) = W (Proc.devRef .tc main_arg3) := by after_results
theorem st0_arg4 : after (hostOps0 (F := F)) W (Proc.devRef .tc main_arg4) = W (Proc.devRef .tc main_arg4) := by after_results

/-! ## The second stretch: the first aggregation, and the first bias as one row -/

theorem st1_v14 : after (hostOps1 (F := F)) W (Proc.devRef .tc main_v14)
    = agg64 (W (Proc.devRef .tc main_v4)) (W (Proc.devRef .tc main_v1)) (W (Proc.devRef .tc main_v3)) := by
  unfold agg64; after_results
theorem st1_v15 : after (hostOps1 (F := F)) W (Proc.devRef .tc main_v15)
    = shapeCast S1x64 (W (Proc.devRef .tc main_arg2)) shapeCasts_S64_S1x64 := by after_results; rfl
theorem st1_v1 : after (hostOps1 (F := F)) W (Proc.devRef .tc main_v1) = W (Proc.devRef .tc main_v1) := by after_results
theorem st1_v3 : after (hostOps1 (F := F)) W (Proc.devRef .tc main_v3) = W (Proc.devRef .tc main_v3) := by after_results
theorem st1_arg3 : after (hostOps1 (F := F)) W (Proc.devRef .tc main_arg3) = W (Proc.devRef .tc main_arg3) := by after_results
theorem st1_arg4 : after (hostOps1 (F := F)) W (Proc.devRef .tc main_arg4) = W (Proc.devRef .tc main_arg4) := by after_results

/-! ## The third stretch: the second aggregation, and the second bias as one row -/

theorem st3_v27 : after (hostOps3 (F := F)) W (Proc.devRef .tc main_v27)
    = agg40 (W (Proc.devRef .tc main_v17)) (W (Proc.devRef .tc main_v1)) (W (Proc.devRef .tc main_v3)) := by
  unfold agg40; after_results
theorem st3_v28 : after (hostOps3 (F := F)) W (Proc.devRef .tc main_v28)
    = shapeCast S1x40 (W (Proc.devRef .tc main_arg4)) shapeCasts_S40_S1x40 := by after_results; rfl

end Cert.KernelIdeal.HostSt

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.Layers.lean ====
/-
  The two graph-convolution layers as functions of whole arrays, on the extended reals.

  A layer projects every node's row by a weight matrix (`rowsTimes`), sums, for every node, the projected rows of the
  sources of its incoming edges (`agg64` / `agg40`: a gather at the sources and a scatter-add at the destinations),
  and adds the bias row to every row; the first layer then floors at zero. Both programs compute exactly these two
  functions of the six arguments; the certificate's two value proofs meet here.
-/
import proofs.«120568_j197568496077_2_alg».proof.Proof.HostStages
import proofs.«120568_j197568496077_2_alg».proof.Proof.LibPlainDot
import proofs.«120568_j197568496077_2_alg».proof.Proof.LibRowBias

noncomputable section

namespace Cert.KernelIdeal.Whole

open Cert.KernelIdeal Cert.KernelIdeal.Gen Cert.KernelIdeal.HostSt Cert.LibPlainDot Cert.LibRowBias
open Idealize.ShloMosaic Idealize.ShloMosaic.TcCoe Idealize.SL.Sem

/-- The floor of the ReLU: the word `0x00000000` read as an extended real. -/
abbrev z0 : EReal := Ideal.ofBits .f32 0x00000000#32

/-- The first layer: project, aggregate over the edges, add the bias row, floor at zero. -/
def layer1 (x0 : S100000x128.Idx → Elt Ideal .f32) (x1 : S128x64.Idx → Elt Ideal .f32) (x2 : S64.Idx → Elt Ideal .f32)
    (e : (⟨S2x1600000, .i32⟩ : BufTy).Contents (Elt Ideal)) : S100000x64.Idx → Elt Ideal .f32 :=
  rowBiasFloor (M := 100000) (N := 64) z0
    (agg64 (F := Ideal) (rowsTimes (M := 100000) (K := 128) (N := 64) x0 x1) (srcOf e) (dstOf e))
    (shapeCast S1x64 x2 shapeCasts_S64_S1x64)

/-- The second layer on the hidden array `h`: project, aggregate over the same edges, add the bias row. -/
def layer2 (h : S100000x64.Idx → Elt Ideal .f32) (x3 : S64x40.Idx → Elt Ideal .f32) (x4 : S40.Idx → Elt Ideal .f32)
    (e : (⟨S2x1600000, .i32⟩ : BufTy).Contents (Elt Ideal)) : S100000x40.Idx → Elt Ideal .f32 :=
  rowBias (M := 100000) (N := 40)
    (agg40 (F := Ideal) (rowsTimes (M := 100000) (K := 64) (N := 40) h x3) (srcOf e) (dstOf e))
    (shapeCast S1x40 x4 shapeCasts_S40_S1x40)

end Cert.KernelIdeal.Whole

end
-- ==== Proof.Proj1.lean ====
/-
  The first projection, `x @ W1`, as one whole array.

  The pallas_call walks the 100000 rows in 50 blocks of 2000. At point `t` the body loads rows `2000 t … 2000 t + 1999`
  of the left operand and the whole right operand, narrows both (the identity on extended reals), multiplies them on
  the matrix unit into a zero accumulator and stores the `[2000, 64]` product; the pipeline writes it back as rows
  `2000 t …` of the result. An entry of a product depends on its own row of the left operand only, so each block written
  back is that block of rows of the ONE product `rowsTimes` of the two whole operands, and the 50 blocks cover the
  result: after the region the result array is `rowsTimes` of the operands as the region found them.
-/
import proofs.«120568_j197568496077_2_alg».proof.Proof.Gen.KernelIdeal.Frame
import proofs.«120568_j197568496077_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj1

open Cert.KernelIdeal Cert.KernelIdeal.Gen Cert.LibPlainDot
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are the plain ones of a `[2000, 128]` by `[128, 64]` product. -/
theorem dot_eq : dot_S2000x128_S128x64_S2000x64_1_0_0_1_n_n = DotDims.plain 2000 128 64 := rfl

/-- What the body stores: the product of the two loaded blocks (narrowing to bf16 is the identity on extended reals,
    and the accumulator is the zero splat). -/
theorem pay_eq (x0 : Vec Ideal S2000x128 .f32) (x1 : Vec Ideal S128x64 .f32) :
    k0_pay1 x0 x1 = rowsTimes (M := 2000) (K := 128) (N := 64) x0 x1 := by
  unfold k0_pay1
  rw [dot_eq]
  exact matmul_zero_plain (φ₁ := .bf16) (φ₂ := .bf16) none x0 x1

/-- The printed index maps, decided over the grid's 50 points: the left operand's and the result's blocks are row block
    `t`, the right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000 t …` of the array. -/
theorem lblk_apply (c : Dev nD) (t : Fin cfg0.N) (y : Fin 2000) (k : Fin 128) (h : t.val * 2000 + y.val < 100000) :
    (iblk0 V c 0 t : Vec Ideal S2000x128 .f32) (ix2 y k) = (V c main_arg0 : S100000x128.Idx → Elt Ideal .f32) (ix2 (⟨t.val * 2000 + y.val, h⟩ : Fin 100000) k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 2000 + 1 * y.val = t.val * 2000 + y.val; rw [e0]; omega
  | ⟨1, _⟩ => show win0_0.index t 1 * 128 + 1 * k.val = k.val; rw [e1]; omega

/-- The right operand's block at every point is the whole array. -/
theorem rblk_eq (c : Dev nD) (t : Fin cfg0.N) :
    (iblk0 V c 1 t : Vec Ideal S128x64 .f32) = (V c main_arg1 : S128x64.Idx → Elt Ideal .f32) := by
  obtain ⟨-, -, e2, e3, -, -⟩ := idx_facts t
  funext j
  unfold iblk0
  rw [View.read_apply]
  show V c main_arg1 _ = V c main_arg1 _
  congr 1
  funext a
  apply Fin.ext
  match a with
  | ⟨0, _⟩ => show win0_1.index t 0 * 128 + 1 * (j 0).val = (j 0).val; rw [e2]; omega
  | ⟨1, _⟩ => show win0_1.index t 1 * 64 + 1 * (j 1).val = (j 1).val; rw [e3]; omega

/-- The whole product of the two operands as the region finds them. -/
abbrev G (c : Dev nD) : S100000x64.Idx → Elt Ideal .f32 :=
  rowsTimes (M := 100000) (K := 128) (N := 64) (V c main_arg0) (V c main_arg1)

/-- What point `t` writes back is block `t` of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨-, -, -, -, e4, e5⟩ := idx_facts t
  funext y
  show k0_pay1 (iblk0 V c 0 t) (iblk0 V c 1 t) y = G V c (((cfg0.win 2).blk t).view.emb y)
  refine (congrFun (pay_eq (iblk0 V c 0 t) (iblk0 V c 1 t)) y).trans ?_
  rw [rblk_eq V c t]
  have hy0 : (y 0).val < 2000 := idx2_lt0 y
  have ht : t.val < 50 := Nat.lt_of_lt_of_eq t.isLt N_0
  refine rowsTimes_rows (t.val * 2000) (V c main_arg0) (iblk0 V c 0 t) (V c main_arg1)
    (fun y' k h => lblk_apply V c t y' k h) y _ ?_ ?_
  · show win0_2.index t 0 * 2000 + 1 * (y 0).val = t.val * 2000 + (y 0).val; rw [e4]; omega
  · show win0_2.index t 1 * 64 + 1 * (y 1).val = (y 1).val; rw [e5]; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Row `r` of the result is in the block of point `r / 2000`: the 50 blocks cover the array. -/
theorem cover (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 50 := N_0
  refine ⟨⟨(i 0).val / 2000, by rw [hN]; omega⟩, flush0_2 _, ?_⟩
  rw [mem_blk]
  obtain ⟨-, -, -, -, e4, e5⟩ := idx_facts ⟨(i 0).val / 2000, by rw [hN]; omega⟩
  intro a
  match a with
  | ⟨0, _⟩ => show win0_2.index _ 0 * 2000 ≤ (i 0).val ∧ (i 0).val < win0_2.index _ 0 * 2000 + 2000; rw [e4]; show (i 0).val / 2000 * 2000 ≤ (i 0).val ∧ (i 0).val < (i 0).val / 2000 * 2000 + 2000; omega
  | ⟨1, _⟩ => show win0_2.index _ 1 * 64 ≤ (i 1).val ∧ (i 1).val < win0_2.index _ 1 * 64 + 64; rw [e5]; omega

/-- After the region the result array is the whole product of the operands as the region found them. -/
theorem final (c : Dev nD) : (dat0 V c).arrAt 2 cfg0.N = G V c :=
  (dat0 V c).arrAt_eq_of_cover 2 (G V c) (fun t _ => flushed_eq V c t) (cover)

end Cert.KernelIdeal.Proj1

end
-- ==== Proof.Bias1.lean ====
/-
  The bias and the ReLU of the first layer, as one whole array.

  The pallas_call walks the 100000 rows of the aggregated array in 50 blocks of 2000. At point `t` the body loads rows
  `2000 t …` of the aggregate and the `[1, 64]` bias row, adds the row to every loaded row, takes the maximum with zero
  and stores the block; the pipeline writes it back as rows `2000 t …` of the result. An entry depends on the same entry
  of the aggregate and on its column of the bias only, so each block written back is that block of rows of the ONE array
  `rowBiasFloor` of the whole aggregate and the bias row, and the 50 blocks cover the result.
-/
import proofs.«120568_j197568496077_2_alg».proof.Proof.Gen.KernelIdeal.Frame
import proofs.«120568_j197568496077_2_alg».proof.Proof.LibPlainDot
import proofs.«120568_j197568496077_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias1

open Cert.KernelIdeal Cert.KernelIdeal.Gen Cert.LibPlainDot Cert.LibRowBias
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The floor: the word `0x00000000` read as an extended real. -/
abbrev z0 : EReal := Ideal.ofBits .f32 0x00000000#32

/-- What the body stores: the loaded block of rows plus the loaded row, floored (the two shape casts are between equal
    shapes, and the `[1, 64]` row is broadcast over the 2000 rows). -/
theorem pay_eq (x0 : Vec Ideal S2000x64 .f32) (x1 : Vec Ideal S1x64 .f32) :
    k1_pay1 x0 x1 = rowBiasFloor z0 (M := 2000) (N := 64) x0 x1 := by
  funext y
  obtain ⟨p, q, rfl⟩ : ∃ (p : Fin 2000) (q : Fin 64), y = ix2 p q := ⟨y 0, y 1, eq_ix2 y⟩
  unfold k1_pay1
  simp only [shapeCast_self]
  show max (x0 (ix2 p q) + broadcastTo S2000x64 x1 broadcasts_S1x64_S2000x64 (ix2 p q)) z0 = _
  rw [broadcastTo_1b_ab_apply]
  rfl

/-- The printed index maps, decided over the grid's 50 points: the left operand's and the result's blocks are row block
    `t`, the row's block is the whole `[1, 64]` array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `2000 t …` of the array. -/
theorem lblk_apply (c : Dev nD) (t : Fin cfg1.N) (y : Fin 2000) (k : Fin 64) (h : t.val * 2000 + y.val < 100000) :
    (iblk1 V c 0 t : Vec Ideal S2000x64 .f32) (ix2 y k) = (V c main_v14 : S100000x64.Idx → Elt Ideal .f32) (ix2 (⟨t.val * 2000 + y.val, h⟩ : Fin 100000) k) := by
  obtain ⟨e0, e1, -, -, -, -⟩ := idx_facts t
  unfold iblk1
  rw [View.read_apply]
  show V c main_v14 _ = V c main_v14 _
  congr 1
  funext a
  apply Fin.ext
  match a with
  | ⟨0, _⟩ => show win1_0.index t 0 * 2000 + 1 * y.val = t.val * 2000 + y.val; rw [e0]; omega
  | ⟨1, _⟩ => show win1_0.index t 1 * 64 + 1 * k.val = k.val; rw [e1]; omega

/-- The row's block at every point is the whole `[1, 64]` array. -/
theorem rblk_eq (c : Dev nD) (t : Fin cfg1.N) :
    (iblk1 V c 1 t : Vec Ideal S1x64 .f32) = (V c main_v15 : S1x64.Idx → Elt Ideal .f32) := by
  obtain ⟨-, -, e2, e3, -, -⟩ := idx_facts t
  funext j
  unfold iblk1
  rw [View.read_apply]
  show V c main_v15 _ = V c main_v15 _
  congr 1
  funext a
  apply Fin.ext
  match a with
  | ⟨0, _⟩ => show win1_1.index t 0 * 1 + 1 * (j 0).val = (j 0).val; rw [e2]; omega
  | ⟨1, _⟩ => show win1_1.index t 1 * 64 + 1 * (j 1).val = (j 1).val; rw [e3]; omega

/-- The whole array: every row of the left operand plus the row, floored, of the operands as the region finds them. -/
abbrev G (c : Dev nD) : S100000x64.Idx → Elt Ideal .f32 :=
  rowBiasFloor z0 (M := 100000) (N := 64) (V c main_v14) (V c main_v15)

/-- What point `t` writes back is block `t` of the whole array. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨-, -, -, -, e4, e5⟩ := idx_facts t
  funext y
  show k1_pay1 (iblk1 V c 0 t) (iblk1 V c 1 t) y = G V c (((cfg1.win 2).blk t).view.emb y)
  refine (congrFun (pay_eq (iblk1 V c 0 t) (iblk1 V c 1 t)) y).trans ?_
  rw [rblk_eq V c t]
  refine rowBiasFloor_rows z0 (t.val * 2000) (V c main_v14) (iblk1 V c 0 t) (V c main_v15)
    (fun y' k h => lblk_apply V c t y' k h) y _ ?_ ?_
  · show win1_2.index t 0 * 2000 + 1 * (y 0).val = t.val * 2000 + (y 0).val; rw [e4]; omega
  · show win1_2.index t 1 * 64 + 1 * (y 1).val = (y 1).val; rw [e5]; omega

/-- An index of the result is in point `t`'s block iff each coordinate is in the block's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v16).slice (win1_2.rect t)).set ↔ _
  rw [View.set_slice_whole, Rect.mem_set_unit]
  exact Iff.rfl

/-- Row `r` of the result is in the block of point `r / 2000`: the 50 blocks cover the array. -/
theorem cover (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 50 := N_1
  refine ⟨⟨(i 0).val / 2000, by rw [hN]; omega⟩, flush1_2 _, ?_⟩
  rw [mem_blk]
  obtain ⟨-, -, -, -, e4, e5⟩ := idx_facts ⟨(i 0).val / 2000, by rw [hN]; omega⟩
  intro a
  match a with
  | ⟨0, _⟩ => show win1_2.index _ 0 * 2000 ≤ (i 0).val ∧ (i 0).val < win1_2.index _ 0 * 2000 + 2000; rw [e4]; show (i 0).val / 2000 * 2000 ≤ (i 0).val ∧ (i 0).val < (i 0).val / 2000 * 2000 + 2000; omega
  | ⟨1, _⟩ => show win1_2.index _ 1 * 64 ≤ (i 1).val ∧ (i 1).val < win1_2.index _ 1 * 64 + 64; rw [e5]; omega

/-- After the region the result array is that whole array of the operands as the region found them. -/
theorem final (c : Dev nD) : (dat1 V c).arrAt 2 cfg1.N = G V c :=
  (dat1 V c).arrAt_eq_of_cover 2 (G V c) (fun t _ => flushed_eq V c t) (cover)

end Cert.KernelIdeal.Bias1

end
-- ==== Proof.Proj2.lean ====
/-
  The second projection, `h1 @ W2`, as one whole array.

  The same pallas_call as the first projection at other extents: 50 blocks of 2000 rows of the `[100000, 64]` hidden
  array against the whole `[64, 40]` weight. The body's extra shape cast of its loaded block is between equal shapes.
  Each block written back is that block of rows of the ONE product `rowsTimes` of the two whole operands, and the 50
  blocks cover the `[100000, 40]` result.
-/
import proofs.«120568_j197568496077_2_alg».proof.Proof.Gen.KernelIdeal.Frame
import proofs.«120568_j197568496077_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj2

open Cert.KernelIdeal Cert.KernelIdeal.Gen Cert.LibPlainDot
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are the plain ones of a `[2000, 64]` by `[64, 40]` product. -/
theorem dot_eq : dot_S2000x64_S64x40_S2000x40_1_0_0_1_n_n = DotDims.plain 2000 64 40 := rfl

/-- What the body stores: the product of the two loaded blocks (narrowing to bf16 is the identity on extended reals,
    and the accumulator is the zero splat). -/
theorem pay_eq (x0 : Vec Ideal S2000x64 .f32) (x1 : Vec Ideal S64x40 .f32) :
    k2_pay1 x0 x1 = rowsTimes (M := 2000) (K := 64) (N := 40) x0 x1 := by
  unfold k2_pay1
  rw [dot_eq]
  simp only [shapeCast_self]
  exact matmul_zero_plain (φ₁ := .bf16) (φ₂ := .bf16) none x0 x1

/-- The printed index maps, decided over the grid's 50 points: the left operand's and the result's blocks are row block
    `t`, the right operand's block is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `2000 t …` of the array. -/
theorem lblk_apply (c : Dev nD) (t : Fin cfg2.N) (y : Fin 2000) (k : Fin 64) (h : t.val * 2000 + y.val < 100000) :
    (iblk2 V c 0 t : Vec Ideal S2000x64 .f32) (ix2 y k) = (V c main_v16 : S100000x64.Idx → Elt Ideal .f32) (ix2 (⟨t.val * 2000 + y.val, h⟩ : Fin 100000) k) := by
  obtain ⟨e0, e1, -, -, -, -⟩ := idx_facts t
  unfold iblk2
  rw [View.read_apply]
  show V c main_v16 _ = V c main_v16 _
  congr 1
  funext a
  apply Fin.ext
  match a with
  | ⟨0, _⟩ => show win2_0.index t 0 * 2000 + 1 * y.val = t.val * 2000 + y.val; rw [e0]; omega
  | ⟨1, _⟩ => show win2_0.index t 1 * 64 + 1 * k.val = k.val; rw [e1]; omega

/-- The right operand's block at every point is the whole array. -/
theorem rblk_eq (c : Dev nD) (t : Fin cfg2.N) :
    (iblk2 V c 1 t : Vec Ideal S64x40 .f32) = (V c main_arg3 : S64x40.Idx → Elt Ideal .f32) := by
  obtain ⟨-, -, e2, e3, -, -⟩ := idx_facts t
  funext j
  unfold iblk2
  rw [View.read_apply]
  show V c main_arg3 _ = V c main_arg3 _
  congr 1
  funext a
  apply Fin.ext
  match a with
  | ⟨0, _⟩ => show win2_1.index t 0 * 64 + 1 * (j 0).val = (j 0).val; rw [e2]; omega
  | ⟨1, _⟩ => show win2_1.index t 1 * 40 + 1 * (j 1).val = (j 1).val; rw [e3]; omega

/-- The whole product of the two operands as the region finds them. -/
abbrev G (c : Dev nD) : S100000x40.Idx → Elt Ideal .f32 :=
  rowsTimes (M := 100000) (K := 64) (N := 40) (V c main_v16) (V c main_arg3)

/-- What point `t` writes back is block `t` of the whole product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x40) hz]
  obtain ⟨-, -, -, -, e4, e5⟩ := idx_facts t
  funext y
  show k2_pay1 (iblk2 V c 0 t) (iblk2 V c 1 t) y = G V c (((cfg2.win 2).blk t).view.emb y)
  refine (congrFun (pay_eq (iblk2 V c 0 t) (iblk2 V c 1 t)) y).trans ?_
  rw [rblk_eq V c t]
  have hy0 : (y 0).val < 2000 := idx2_lt0 y
  have ht : t.val < 50 := Nat.lt_of_lt_of_eq t.isLt N_2
  refine rowsTimes_rows (t.val * 2000) (V c main_v16) (iblk2 V c 0 t) (V c main_arg3)
    (fun y' k h => lblk_apply V c t y' k h) y _ ?_ ?_
  · show win2_2.index t 0 * 2000 + 1 * (y 0).val = t.val * 2000 + (y 0).val; rw [e4]; omega
  · show win2_2.index t 1 * 40 + 1 * (y 1).val = (y 1).val; rw [e5]; omega

/-- An index of the result is in point `t`'s block iff each coordinate is in the block's range on its axis. -/
theorem mem_blk (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v17).slice (win2_2.rect t)).set ↔ _
  rw [View.set_slice_whole, Rect.mem_set_unit]
  exact Iff.rfl

/-- Row `r` of the result is in the block of point `r / 2000`: the 50 blocks cover the array. -/
theorem cover (i : S100000x40.Idx) : ∃ t : Fin cfg2.N, (cfg2.win 2).flush t = true ∧ i ∈ ((cfg2.win 2).blk t).view.set := by
  have hi0 : (i 0).val < 100000 := idx2_lt0 i
  have hi1 : (i 1).val < 40 := idx2_lt1 i
  have hN : cfg2.N = 50 := N_2
  refine ⟨⟨(i 0).val / 2000, by rw [hN]; omega⟩, flush2_2 _, ?_⟩
  rw [mem_blk]
  obtain ⟨-, -, -, -, e4, e5⟩ := idx_facts ⟨(i 0).val / 2000, by rw [hN]; omega⟩
  intro a
  match a with
  | ⟨0, _⟩ => show win2_2.index _ 0 * 2000 ≤ (i 0).val ∧ (i 0).val < win2_2.index _ 0 * 2000 + 2000; rw [e4]; show (i 0).val / 2000 * 2000 ≤ (i 0).val ∧ (i 0).val < (i 0).val / 2000 * 2000 + 2000; omega
  | ⟨1, _⟩ => show win2_2.index _ 1 * 40 ≤ (i 1).val ∧ (i 1).val < win2_2.index _ 1 * 40 + 40; rw [e5]; omega

/-- After the region the result array is the whole product of the operands as the region found them. -/
theorem final (c : Dev nD) : (dat2 V c).arrAt 2 cfg2.N = G V c :=
  (dat2 V c).arrAt_eq_of_cover 2 (G V c) (fun t _ => flushed_eq V c t) (cover)

end Cert.KernelIdeal.Proj2

end
-- ==== Proof.Bias2.lean ====
/-
  The bias of the second layer, as one whole array.

  The same pallas_call as the first layer's bias, without the floor and at 40 columns: 50 blocks of 2000 rows of the
  aggregated `[100000, 40]` array, each plus the `[1, 40]` bias row. Each block written back is that block of rows of the
  ONE array `rowBias` of the whole aggregate and the bias row, and the 50 blocks cover the result.
-/
import proofs.«120568_j197568496077_2_alg».proof.Proof.Gen.KernelIdeal.Frame
import proofs.«120568_j197568496077_2_alg».proof.Proof.LibPlainDot
import proofs.«120568_j197568496077_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias2

open Cert.KernelIdeal Cert.KernelIdeal.Gen Cert.LibPlainDot Cert.LibRowBias
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores: the loaded block of rows plus the loaded row (the two shape casts are between equal
    shapes, and the `[1, 40]` row is broadcast over the 2000 rows). -/
theorem pay_eq (x0 : Vec Ideal S2000x40 .f32) (x1 : Vec Ideal S1x40 .f32) :
    k3_pay1 x0 x1 = rowBias (M := 2000) (N := 40) x0 x1 := by
  funext y
  obtain ⟨p, q, rfl⟩ : ∃ (p : Fin 2000) (q : Fin 40), y = ix2 p q := ⟨y 0, y 1, eq_ix2 y⟩
  unfold k3_pay1
  simp only [shapeCast_self]
  show x0 (ix2 p q) + broadcastTo S2000x40 x1 broadcasts_S1x40_S2000x40 (ix2 p q) = _
  rw [broadcastTo_1b_ab_apply]
  rfl

/-- The printed index maps, decided over the grid's 50 points: the left operand's and the result's blocks are row block
    `t`, the row's block is the whole `[1, 40]` array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows `2000 t …` of the array. -/
theorem lblk_apply (c : Dev nD) (t : Fin cfg3.N) (y : Fin 2000) (k : Fin 40) (h : t.val * 2000 + y.val < 100000) :
    (iblk3 V c 0 t : Vec Ideal S2000x40 .f32) (ix2 y k) = (V c main_v27 : S100000x40.Idx → Elt Ideal .f32) (ix2 (⟨t.val * 2000 + y.val, h⟩ : Fin 100000) k) := by
  obtain ⟨e0, e1, -, -, -, -⟩ := idx_facts t
  unfold iblk3
  rw [View.read_apply]
  show V c main_v27 _ = V c main_v27 _
  congr 1
  funext a
  apply Fin.ext
  match a with
  | ⟨0, _⟩ => show win3_0.index t 0 * 2000 + 1 * y.val = t.val * 2000 + y.val; rw [e0]; omega
  | ⟨1, _⟩ => show win3_0.index t 1 * 40 + 1 * k.val = k.val; rw [e1]; omega

/-- The row's block at every point is the whole `[1, 40]` array. -/
theorem rblk_eq (c : Dev nD) (t : Fin cfg3.N) :
    (iblk3 V c 1 t : Vec Ideal S1x40 .f32) = (V c main_v28 : S1x40.Idx → Elt Ideal .f32) := by
  obtain ⟨-, -, e2, e3, -, -⟩ := idx_facts t
  funext j
  unfold iblk3
  rw [View.read_apply]
  show V c main_v28 _ = V c main_v28 _
  congr 1
  funext a
  apply Fin.ext
  match a with
  | ⟨0, _⟩ => show win3_1.index t 0 * 1 + 1 * (j 0).val = (j 0).val; rw [e2]; omega
  | ⟨1, _⟩ => show win3_1.index t 1 * 40 + 1 * (j 1).val = (j 1).val; rw [e3]; omega

/-- The whole array: every row of the left operand plus the row, of the operands as the region finds them. -/
abbrev G (c : Dev nD) : S100000x40.Idx → Elt Ideal .f32 :=
  rowBias (M := 100000) (N := 40) (V c main_v27) (V c main_v28)

/-- What point `t` writes back is block `t` of the whole array. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S2000x40) hz, View.ld_unit_zero (S := S1x40) hz]
  obtain ⟨-, -, -, -, e4, e5⟩ := idx_facts t
  funext y
  show k3_pay1 (iblk3 V c 0 t) (iblk3 V c 1 t) y = G V c (((cfg3.win 2).blk t).view.emb y)
  refine (congrFun (pay_eq (iblk3 V c 0 t) (iblk3 V c 1 t)) y).trans ?_
  rw [rblk_eq V c t]
  refine rowBias_rows (t.val * 2000) (V c main_v27) (iblk3 V c 0 t) (V c main_v28)
    (fun y' k h => lblk_apply V c t y' k h) y _ ?_ ?_
  · show win3_2.index t 0 * 2000 + 1 * (y 0).val = t.val * 2000 + (y 0).val; rw [e4]; omega
  · show win3_2.index t 1 * 40 + 1 * (y 1).val = (y 1).val; rw [e5]; omega

/-- An index of the result is in point `t`'s block iff each coordinate is in the block's range on its axis. -/
theorem mem_blk (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v29).slice (win3_2.rect t)).set ↔ _
  rw [View.set_slice_whole, Rect.mem_set_unit]
  exact Iff.rfl

/-- Row `r` of the result is in the block of point `r / 2000`: the 50 blocks cover the array. -/
theorem cover (i : S100000x40.Idx) : ∃ t : Fin cfg3.N, (cfg3.win 2).flush t = true ∧ i ∈ ((cfg3.win 2).blk t).view.set := by
  have hi0 : (i 0).val < 100000 := idx2_lt0 i
  have hi1 : (i 1).val < 40 := idx2_lt1 i
  have hN : cfg3.N = 50 := N_3
  refine ⟨⟨(i 0).val / 2000, by rw [hN]; omega⟩, flush3_2 _, ?_⟩
  rw [mem_blk]
  obtain ⟨-, -, -, -, e4, e5⟩ := idx_facts ⟨(i 0).val / 2000, by rw [hN]; omega⟩
  intro a
  match a with
  | ⟨0, _⟩ => show win3_2.index _ 0 * 2000 ≤ (i 0).val ∧ (i 0).val < win3_2.index _ 0 * 2000 + 2000; rw [e4]; show (i 0).val / 2000 * 2000 ≤ (i 0).val ∧ (i 0).val < (i 0).val / 2000 * 2000 + 2000; omega
  | ⟨1, _⟩ => show win3_2.index _ 1 * 40 ≤ (i 1).val ∧ (i 1).val < win3_2.index _ 1 * 40 + 40; rw [e5]; omega

/-- After the region the result array is that whole array of the operands as the region found them. -/
theorem final (c : Dev nD) : (dat3 V c).arrAt 2 cfg3.N = G V c :=
  (dat3 V c).arrAt_eq_of_cover 2 (G V c) (fun t _ => flushed_eq V c t) (cover)

end Cert.KernelIdeal.Bias2

end
-- ==== Proof.KValue.lean ====
/-
  The idealized kernel's result as ONE function of the six arguments.

  Reading the fold of buffer contents `W0 … W7` back from the result buffer: the last pallas_call leaves the second
  aggregate plus the second bias row; the second aggregate is the aggregation of the second projection; that is the
  product of the hidden array with the second weight; the hidden array is the first aggregate plus the first bias row,
  floored at zero; the first aggregate is the aggregation of the first projection, the product of the features with the
  first weight. The edge array's two rows, the weights and the biases reach their readers unchanged through the
  segments that do not write them.
-/
import proofs.«120568_j197568496077_2_alg».proof.Proof.KRun
import proofs.«120568_j197568496077_2_alg».proof.Proof.Layers
import proofs.«120568_j197568496077_2_alg».proof.Proof.Proj1
import proofs.«120568_j197568496077_2_alg».proof.Proof.Bias1
import proofs.«120568_j197568496077_2_alg».proof.Proof.Proj2
import proofs.«120568_j197568496077_2_alg».proof.Proof.Bias2

set_option maxRecDepth 16384

noncomputable section

namespace Cert.KernelIdeal.Whole

open Cert.KernelIdeal Cert.KernelIdeal.Gen Cert.KernelIdeal.HostSt Cert.LibPlainDot Cert.LibRowBias
open Idealize.ShloMosaic Idealize.ShloMosaic.TcCoe Idealize.SL.Sem

variable (m : (ℓ : Loc nD τ sig) → Buf (Elt Ideal) ℓ) (ρ : Dev nD → PrngReg)

/-! ## After the first stretch -/

theorem W1_v1 (c : Dev nD) : W1 m ρ c (Proc.devRef .tc main_v1) = srcOf (m ((c : Thread nD τ).loc main_arg5)) := st0_v1 (W0 m ρ c)
theorem W1_v3 (c : Dev nD) : W1 m ρ c (Proc.devRef .tc main_v3) = dstOf (m ((c : Thread nD τ).loc main_arg5)) := st0_v3 (W0 m ρ c)
theorem W1_arg0 (c : Dev nD) : W1 m ρ c (Proc.devRef .tc main_arg0) = m ((c : Thread nD τ).loc main_arg0) := st0_arg0 (W0 m ρ c)
theorem W1_arg1 (c : Dev nD) : W1 m ρ c (Proc.devRef .tc main_arg1) = m ((c : Thread nD τ).loc main_arg1) := st0_arg1 (W0 m ρ c)
theorem W1_arg2 (c : Dev nD) : W1 m ρ c (Proc.devRef .tc main_arg2) = m ((c : Thread nD τ).loc main_arg2) := st0_arg2 (W0 m ρ c)
theorem W1_arg3 (c : Dev nD) : W1 m ρ c (Proc.devRef .tc main_arg3) = m ((c : Thread nD τ).loc main_arg3) := st0_arg3 (W0 m ρ c)
theorem W1_arg4 (c : Dev nD) : W1 m ρ c (Proc.devRef .tc main_arg4) = m ((c : Thread nD τ).loc main_arg4) := st0_arg4 (W0 m ρ c)

/-! ## After the first projection -/

theorem W2_v4 (c : Dev nD) : W2 m ρ c (Proc.devRef .tc main_v4)
    = rowsTimes (M := 100000) (K := 128) (N := 64) (m ((c : Thread nD τ).loc main_arg0)) (m ((c : Thread nD τ).loc main_arg1)) := by
  refine ((W2_arr m ρ c 2).trans (Proj1.final (V1 m ρ) c)).trans ?_
  show rowsTimes (M := 100000) (K := 128) (N := 64) (W1 m ρ c (Proc.devRef .tc main_arg0)) (W1 m ρ c (Proc.devRef .tc main_arg1)) = _
  rw [W1_arg0, W1_arg1]
theorem W2_v1 (c : Dev nD) : W2 m ρ c (Proc.devRef .tc main_v1) = srcOf (m ((c : Thread nD τ).loc main_arg5)) :=
  (W2_of_ne m ρ c main_v1 (by decide)).trans (W1_v1 m ρ c)
theorem W2_v3 (c : Dev nD) : W2 m ρ c (Proc.devRef .tc main_v3) = dstOf (m ((c : Thread nD τ).loc main_arg5)) :=
  (W2_of_ne m ρ c main_v3 (by decide)).trans (W1_v3 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)

/-! ## After the second stretch -/

theorem W3_v14 (c : Dev nD) : W3 m ρ c (Proc.devRef .tc main_v14)
    = agg64 (F := Ideal) (rowsTimes (M := 100000) (K := 128) (N := 64) (m ((c : Thread nD τ).loc main_arg0)) (m ((c : Thread nD τ).loc main_arg1)))
        (srcOf (m ((c : Thread nD τ).loc main_arg5))) (dstOf (m ((c : Thread nD τ).loc main_arg5))) := by
  refine (st1_v14 (W2 m ρ c)).trans ?_
  rw [W2_v4, W2_v1, W2_v3]
theorem W3_v15 (c : Dev nD) : W3 m ρ c (Proc.devRef .tc main_v15)
    = shapeCast S1x64 (m ((c : Thread nD τ).loc main_arg2)) shapeCasts_S64_S1x64 := by
  refine (st1_v15 (W2 m ρ c)).trans ?_
  rw [W2_arg2]
theorem W3_v1 (c : Dev nD) : W3 m ρ c (Proc.devRef .tc main_v1) = srcOf (m ((c : Thread nD τ).loc main_arg5)) :=
  (st1_v1 (W2 m ρ c)).trans (W2_v1 m ρ c)
theorem W3_v3 (c : Dev nD) : W3 m ρ c (Proc.devRef .tc main_v3) = dstOf (m ((c : Thread nD τ).loc main_arg5)) :=
  (st1_v3 (W2 m ρ c)).trans (W2_v3 m ρ c)
theorem W3_arg3 (c : Dev nD) : W3 m ρ c (Proc.devRef .tc main_arg3) = m ((c : Thread nD τ).loc main_arg3) :=
  (st1_arg3 (W2 m ρ c)).trans (W2_arg3 m ρ c)
theorem W3_arg4 (c : Dev nD) : W3 m ρ c (Proc.devRef .tc main_arg4) = m ((c : Thread nD τ).loc main_arg4) :=
  (st1_arg4 (W2 m ρ c)).trans (W2_arg4 m ρ c)

/-! ## After the bias and the ReLU -/

theorem W4_v16 (c : Dev nD) : W4 m ρ c (Proc.devRef .tc main_v16)
    = layer1 (m ((c : Thread nD τ).loc main_arg0)) (m ((c : Thread nD τ).loc main_arg1)) (m ((c : Thread nD τ).loc main_arg2)) (m ((c : Thread nD τ).loc main_arg5)) := by
  refine ((W4_arr m ρ c 2).trans (Bias1.final (V3 m ρ) c)).trans ?_
  show rowBiasFloor (M := 100000) (N := 64) z0 (W3 m ρ c (Proc.devRef .tc main_v14)) (W3 m ρ c (Proc.devRef .tc main_v15)) = _
  rw [W3_v14, W3_v15]
  rfl
theorem W4_v1 (c : Dev nD) : W4 m ρ c (Proc.devRef .tc main_v1) = srcOf (m ((c : Thread nD τ).loc main_arg5)) :=
  (W4_of_ne m ρ c main_v1 (by decide)).trans (W3_v1 m ρ c)
theorem W4_v3 (c : Dev nD) : W4 m ρ c (Proc.devRef .tc main_v3) = dstOf (m ((c : Thread nD τ).loc main_arg5)) :=
  (W4_of_ne m ρ c main_v3 (by decide)).trans (W3_v3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)

/-! ## After the second projection -/

theorem W5_v17 (c : Dev nD) : W5 m ρ c (Proc.devRef .tc main_v17)
    = rowsTimes (M := 100000) (K := 64) (N := 40)
        (layer1 (m ((c : Thread nD τ).loc main_arg0)) (m ((c : Thread nD τ).loc main_arg1)) (m ((c : Thread nD τ).loc main_arg2)) (m ((c : Thread nD τ).loc main_arg5)))
        (m ((c : Thread nD τ).loc main_arg3)) := by
  refine ((W5_arr m ρ c 2).trans (Proj2.final (V4 m ρ) c)).trans ?_
  show rowsTimes (M := 100000) (K := 64) (N := 40) (W4 m ρ c (Proc.devRef .tc main_v16)) (W4 m ρ c (Proc.devRef .tc main_arg3)) = _
  rw [W4_v16, W4_arg3]
theorem W5_v1 (c : Dev nD) : W5 m ρ c (Proc.devRef .tc main_v1) = srcOf (m ((c : Thread nD τ).loc main_arg5)) :=
  (W5_of_ne m ρ c main_v1 (by decide)).trans (W4_v1 m ρ c)
theorem W5_v3 (c : Dev nD) : W5 m ρ c (Proc.devRef .tc main_v3) = dstOf (m ((c : Thread nD τ).loc main_arg5)) :=
  (W5_of_ne m ρ c main_v3 (by decide)).trans (W4_v3 m ρ c)
theorem W5_arg4 (c : Dev nD) : W5 m ρ c (Proc.devRef .tc main_arg4) = m ((c : Thread nD τ).loc main_arg4) :=
  (W5_of_ne m ρ c main_arg4 (by decide)).trans (W4_arg4 m ρ c)

/-! ## After the third stretch, and after the last bias -/

theorem W6_v27 (c : Dev nD) : W6 m ρ c (Proc.devRef .tc main_v27)
    = agg40 (F := Ideal) (rowsTimes (M := 100000) (K := 64) (N := 40)
        (layer1 (m ((c : Thread nD τ).loc main_arg0)) (m ((c : Thread nD τ).loc main_arg1)) (m ((c : Thread nD τ).loc main_arg2)) (m ((c : Thread nD τ).loc main_arg5)))
        (m ((c : Thread nD τ).loc main_arg3)))
        (srcOf (m ((c : Thread nD τ).loc main_arg5))) (dstOf (m ((c : Thread nD τ).loc main_arg5))) := by
  refine (st3_v27 (W5 m ρ c)).trans ?_
  rw [W5_v17, W5_v1, W5_v3]
theorem W6_v28 (c : Dev nD) : W6 m ρ c (Proc.devRef .tc main_v28)
    = shapeCast S1x40 (m ((c : Thread nD τ).loc main_arg4)) shapeCasts_S40_S1x40 := by
  refine (st3_v28 (W5 m ρ c)).trans ?_
  rw [W5_arg4]

/-- The result buffer at the last boundary: the two layers of the arguments. -/
theorem W7_v29 (c : Dev nD) : W7 m ρ c (Proc.devRef .tc main_v29)
    = layer2 (layer1 (m ((c : Thread nD τ).loc main_arg0)) (m ((c : Thread nD τ).loc main_arg1)) (m ((c : Thread nD τ).loc main_arg2)) (m ((c : Thread nD τ).loc main_arg5)))
        (m ((c : Thread nD τ).loc main_arg3)) (m ((c : Thread nD τ).loc main_arg4)) (m ((c : Thread nD τ).loc main_arg5)) := by
  refine ((W7_arr m ρ c 2).trans (Bias2.final (V6 m ρ) c)).trans ?_
  show rowBias (M := 100000) (N := 40) (W6 m ρ c (Proc.devRef .tc main_v27)) (W6 m ρ c (Proc.devRef .tc main_v28)) = _
  rw [W6_v27, W6_v28]
  rfl

/-- The run: every weakly fair execution terminates with the result buffer at the two layers of the arguments, and the
    arguments unchanged. -/
theorem run : θ_run defs (onTc (τ := τ) (main (F := Ideal))) ⟨m, fun _ => 0, ρ⟩ (fun r => ∀ c : Dev nD,
      r.2.mem ((c.tc : Thread nD τ).loc main_v29)
        = layer2 (layer1 (m ((c : Thread nD τ).loc main_arg0)) (m ((c : Thread nD τ).loc main_arg1)) (m ((c : Thread nD τ).loc main_arg2)) (m ((c : Thread nD τ).loc main_arg5)))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v29 m ρ c), (h c).2⟩) (Cert.KernelIdeal.Hand.run_result (F := Ideal) m ρ)

end Cert.KernelIdeal.Whole

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«120568_j197568496077_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefBridge.lean ====
/-
  The idealized reference's result is the same two layers.

  The reference runs on the host: `dot_general`, the gather / scatter-add aggregation, the bias broadcast to one row and
  then over all rows and added, `maximum` with a broadcast zero; then the same again without the maximum. On the extended
  reals a `dot_general` over the plain dimension numbers is the product `rowsTimes`; the aggregation is, operation for
  operation, the one the kernel's program runs between its pallas_calls; and the twice-broadcast bias added (and floored)
  is `rowBias` (`rowBiasFloor`) of the bias reshaped to one row. So the reference's result term is `layer2 (layer1 …)`
  of its arguments.
-/
import proofs.«120568_j197568496077_2_alg».proof.Proof.Gen.ReferenceIdeal.Read
import proofs.«120568_j197568496077_2_alg».proof.Proof.Layers
import proofs.«120568_j197568496077_2_alg».proof.Proof.LibRowBiasHost

set_option maxRecDepth 16384

noncomputable section

namespace Cert.ReferenceIdeal.Bridge

open Cert.ReferenceIdeal Cert.ReferenceIdeal.Gen Cert.LibPlainDot Cert.LibRowBias
open Idealize.ShloMosaic Idealize.ShloMosaic.TcCoe Idealize.SL.Sem

/-- The reference's two products use the plain dimension numbers. -/
theorem dot1_eq : dot_S100000x128_S128x64_S100000x64_1_0_0_1_n_n = DotDims.plain 100000 128 64 := rfl
theorem dot2_eq : dot_S100000x64_S64x40_S100000x40_1_0_0_1_n_n = DotDims.plain 100000 64 40 := rfl

variable (x0 : (⟨S100000x128, .f32⟩ : BufTy).Contents (Elt Ideal)) (x1 : (⟨S128x64, .f32⟩ : BufTy).Contents (Elt Ideal))
  (x2 : (⟨S64, .f32⟩ : BufTy).Contents (Elt Ideal)) (x3 : (⟨S64x40, .f32⟩ : BufTy).Contents (Elt Ideal))
  (x4 : (⟨S40, .f32⟩ : BufTy).Contents (Elt Ideal)) (x5 : (⟨S2x1600000, .i32⟩ : BufTy).Contents (Elt Ideal))

/-- The first `dot_general` is the product of the features with the first weight. -/
theorem proj1_eq : Read.val_main_v4 (F := Ideal) x0 x1 = rowsTimes (M := 100000) (K := 128) (N := 64) x0 x1 := by
  unfold Read.val_main_v4
  simp only [Host.dotGeneral]
  rw [dot1_eq]
  exact dotGeneral_plain none _ x0 x1

/-- The first gather / scatter-add is the aggregation the kernel's program runs, operation for operation. -/
theorem agg1_eq : Read.val_main_v14 (F := Ideal) x0 x1 x5
    = Cert.KernelIdeal.HostSt.agg64 (F := Ideal) (Read.val_main_v4 (F := Ideal) x0 x1)
        (Cert.KernelIdeal.HostSt.srcOf x5) (Cert.KernelIdeal.HostSt.dstOf x5) := rfl

/-- The first layer. -/
theorem layer1_eq : Read.val_main_v18 (F := Ideal) x0 x1 x2 x5 = Cert.KernelIdeal.Whole.layer1 x0 x1 x2 x5 := by
  unfold Read.val_main_v18 Read.val_main_v17 Read.val_main_call0_v0 Read.val_main_call0_cst Read.val_main_v16 Read.val_main_v15
    Cert.KernelIdeal.Whole.layer1
  rw [agg1_eq, proj1_eq]
  exact max_addf_bcastRow 0x00000000#32 _ x2 _ _ _ _

/-- The second `dot_general` is the product of the hidden array with the second weight. -/
theorem proj2_eq : Read.val_main_v19 (F := Ideal) x0 x1 x2 x3 x5
    = rowsTimes (M := 100000) (K := 64) (N := 40) (Read.val_main_v18 (F := Ideal) x0 x1 x2 x5) x3 := by
  unfold Read.val_main_v19
  simp only [Host.dotGeneral]
  rw [dot2_eq]
  exact dotGeneral_plain none _ _ x3

/-- The second gather / scatter-add, likewise. -/
theorem agg2_eq : Read.val_main_v29 (F := Ideal) x0 x1 x2 x3 x5
    = Cert.KernelIdeal.HostSt.agg40 (F := Ideal) (Read.val_main_v19 (F := Ideal) x0 x1 x2 x3 x5)
        (Cert.KernelIdeal.HostSt.srcOf x5) (Cert.KernelIdeal.HostSt.dstOf x5) := rfl

/-- The reference's result is the two layers of its arguments. -/
theorem out_eq : Read.val_main_v32 (F := Ideal) x0 x1 x2 x3 x4 x5
    = Cert.KernelIdeal.Whole.layer2 (Cert.KernelIdeal.Whole.layer1 x0 x1 x2 x5) x3 x4 x5 := by
  unfold Read.val_main_v32 Read.val_main_v31 Read.val_main_v30 Cert.KernelIdeal.Whole.layer2
  rw [agg2_eq, proj2_eq, layer1_eq]
  exact addf_bcastRow _ x4 _ _ _

end Cert.ReferenceIdeal.Bridge

end
-- ==== Proof.lean ====
/-
  A two-layer graph convolution: the Pallas program against plain jnp, on the extended reals.

  Both programs compute, for node features `x`, weights `W1`, `W2`, biases `b1`, `b2` and an edge list,
    `h = max (A (x · W1) + b1, 0)`  and then  `out = A (h · W2) + b2`,
  where `A` sums, for every node, the rows of the sources of its incoming edges (a gather at the sources, a negative
  index wrapped by the number of nodes, and a scatter-add into zero at the destinations), and `+ b` adds the bias to
  every row. The Pallas program does the two products and the two bias steps as four pallas_calls over 50 blocks of
  2000 rows (its products narrow the operands to bf16 first and accumulate into zero on the matrix unit) and leaves
  `A` on the host; the reference does everything on the host.

  On the extended reals narrowing is the identity and a matrix-unit product into zero is the same sum of products as
  the host's `dot_general` (`rowsTimes`); a product, and a bias step, of a block of rows is that block of rows of the
  whole result, and the 50 blocks cover the array; the aggregation is the same operations in both programs; the
  reference's bias broadcast twice and the kernel's bias reshaped to one row and broadcast over a block both add the
  bias entry of the column. So both results are `layer2 (layer1 x W1 b1 edges) W2 b2 edges` — only sums, products and
  maxima in the same arrangement, so finiteness of the inputs is not used.

  The three frames are the generated ones (the reference's is its generated run with the result dropped); the ideal
  pass rewrote nothing, so the sanctioned-idealization conjunct is trivial.
-/
import proofs.«120568_j197568496077_2_alg».proof.Defs
import proofs.«120568_j197568496077_2_alg».proof.Proof.Gen.Kernel
import proofs.«120568_j197568496077_2_alg».proof.Proof.Gen.Kernel.Skeleton
import proofs.«120568_j197568496077_2_alg».proof.Proof.Gen.Kernel.Launch
import proofs.«120568_j197568496077_2_alg».proof.Proof.Gen.Kernel.Points
import proofs.«120568_j197568496077_2_alg».proof.Proof.Gen.Kernel.Frame
import proofs.«120568_j197568496077_2_alg».proof.Proof.Gen.KernelIdeal
import proofs.«120568_j197568496077_2_alg».proof.Proof.Gen.KernelIdeal.Skeleton
import proofs.«120568_j197568496077_2_alg».proof.Proof.Gen.KernelIdeal.Launch
import proofs.«120568_j197568496077_2_alg».proof.Proof.Gen.KernelIdeal.Points
import proofs.«120568_j197568496077_2_alg».proof.Proof.Gen.KernelIdeal.Frame
import proofs.«120568_j197568496077_2_alg».proof.Proof.Gen.ReferenceIdeal
import proofs.«120568_j197568496077_2_alg».proof.Proof.Gen.Pre_finite_inputs
import proofs.«120568_j197568496077_2_alg».proof.Proof.Gen.ReferenceIdeal.Run
import proofs.«120568_j197568496077_2_alg».proof.Proof.Gen.ReferenceIdeal.Read
import proofs.«120568_j197568496077_2_alg».proof.Proof.KValue
import proofs.«120568_j197568496077_2_alg».proof.Proof.RefBridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments both idealized programs end with the result array at the two layers of
    those arguments. -/
theorem algebraic : Cert.algebraic_KernelIdeal_ReferenceIdeal := by
  intro m ρ m' ρ' _ hagree
  refine ⟨fun c => Cert.KernelIdeal.Whole.layer2
      (Cert.KernelIdeal.Whole.layer1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v32_eq, Cert.ReferenceIdeal.Bridge.out_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
